-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v13)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v13) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v15) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S256x64x128 : Shape := ⟨3, ![256, 64, 128]⟩
abbrev S1048576x1 : Shape := ⟨2, ![1048576, 1]⟩
abbrev S1048576x128 : Shape := ⟨2, ![1048576, 128]⟩
abbrev S1048576 : Shape := ⟨1, ![1048576]⟩
abbrev S_ : Shape := ⟨0, ![]⟩

class Facts : Prop where
  bcast_S_S256x64x128 : S_.BroadcastsInDim S256x64x128 (![] : Fin 0 → Fin S256x64x128.rank)
  reducesTo_S256x64x128_S_d0_1_2 : S256x64x128.ReducesTo [0, 1, 2] S_
  h_S_ : 0 < S_.numel
  bcast_S_S1048576x1 : S_.BroadcastsInDim S1048576x1 (![] : Fin 0 → Fin S1048576x1.rank)
  reducesTo_S1048576x1_S_d0_1 : S1048576x1.ReducesTo [0, 1] S_
  bcast_S_S1048576x128 : S_.BroadcastsInDim S1048576x128 (![] : Fin 0 → Fin S1048576x128.rank)
  reducesTo_S1048576x128_S_d0_1 : S1048576x128.ReducesTo [0, 1] S_

variable [Facts]

def fn {F : FTy → Type} [FloatOps F] (main_arg0 : FVec F S256x64x128 .f32) (main_arg1 : FVec F S1048576x1 .f32) (main_arg2 : FVec F S1048576x128 .f32) (main_arg3 : IVec S1048576 32) (main_arg4 : IVec S1048576 32) : IVec S_ 1 :=
  let main_v0 : FVec F S256x64x128 .f32 := Host.absf main_arg0
  let main_cst : FVec F S_ .f32 := constant S_ .f32 0x7F800000#32
  let main_v1 : FVec F S256x64x128 .f32 := broadcastInDim S256x64x128 ![] bcast_S_S256x64x128 main_cst
  let main_v2 : IVec S256x64x128 1 := cmpf .olt main_v0 main_v1
  let main_c : IVec S_ 1 := constantI S_ 1 1#1
  let main_v3 : IVec S_ 1 := (fun x v => Host.reduce IntOp.andi x v reducesTo_S256x64x128_S_d0_1_2 h_S_) main_v2 main_c
  let main_v4 : FVec F S1048576x1 .f32 := Host.absf main_arg1
  let main_cst_0 : FVec F S_ .f32 := constant S_ .f32 0x7F800000#32
  let main_v5 : FVec F S1048576x1 .f32 := broadcastInDim S1048576x1 ![] bcast_S_S1048576x1 main_cst_0
  let main_v6 : IVec S1048576x1 1 := cmpf .olt main_v4 main_v5
  let main_c_1 : IVec S_ 1 := constantI S_ 1 1#1
  let main_v7 : IVec S_ 1 := (fun x v => Host.reduce IntOp.andi x v reducesTo_S1048576x1_S_d0_1 h_S_) main_v6 main_c_1
  let main_v8 : IVec S_ 1 := andi main_v3 main_v7
  let main_v9 : FVec F S1048576x128 .f32 := Host.absf main_arg2
  let main_cst_2 : FVec F S_ .f32 := constant S_ .f32 0x7F800000#32
  let main_v10 : FVec F S1048576x128 .f32 := broadcastInDim S1048576x128 ![] bcast_S_S1048576x128 main_cst_2
  let main_v11 : IVec S1048576x128 1 := cmpf .olt main_v9 main_v10
  let main_c_3 : IVec S_ 1 := constantI S_ 1 1#1
  let main_v12 : IVec S_ 1 := (fun x v => Host.reduce IntOp.andi x v reducesTo_S1048576x128_S_d0_1 h_S_) main_v11 main_c_3
  let main_v13 : IVec S_ 1 := andi main_v8 main_v12
  main_v13
-- ==== Kernel.lean ====
abbrev S256x64x128 : Shape := ⟨3, ![256, 64, 128]⟩
abbrev S1048576x1 : Shape := ⟨2, ![1048576, 1]⟩
abbrev S1048576x128 : Shape := ⟨2, ![1048576, 128]⟩
abbrev S1048576 : Shape := ⟨1, ![1048576]⟩
abbrev S16384x128 : Shape := ⟨2, ![16384, 128]⟩
abbrev S_ : Shape := ⟨0, ![]⟩
abbrev S8192x1 : Shape := ⟨2, ![8192, 1]⟩
abbrev S8192x128 : Shape := ⟨2, ![8192, 128]⟩

abbrev nBuf : Space → Nat
  | .hbm => 24
  | .vmem => 8
  | .smem => 0
  | _ => 0

abbrev bufTy : (tb : Table) → Fin (tcTables nBuf tb) → BufTy
  | .hbm, ⟨0, _⟩ => ⟨S256x64x128, .f32⟩
  | .hbm, ⟨1, _⟩ => ⟨S1048576x1, .f32⟩
  | .hbm, ⟨2, _⟩ => ⟨S1048576x128, .f32⟩
  | .hbm, ⟨3, _⟩ => ⟨S1048576, .i32⟩
  | .hbm, ⟨4, _⟩ => ⟨S1048576, .i32⟩
  | .hbm, ⟨5, _⟩ => ⟨S16384x128, .f32⟩
  | .hbm, ⟨6, _⟩ => ⟨S_, .i32⟩
  | .hbm, ⟨7, _⟩ => ⟨S1048576, .i32⟩
  | .hbm, ⟨8, _⟩ => ⟨S1048576, .i1⟩
  | .hbm, ⟨9, _⟩ => ⟨S_, .i32⟩
  | .hbm, ⟨10, _⟩ => ⟨S1048576, .i32⟩
  | .hbm, ⟨11, _⟩ => ⟨S1048576, .i32⟩
  | .hbm, ⟨12, _⟩ => ⟨S1048576, .i32⟩
  | .hbm, ⟨13, _⟩ => ⟨S1048576x1, .i32⟩
  | .hbm, ⟨14, _⟩ => ⟨S1048576x128, .f32⟩
  | .hbm, ⟨15, _⟩ => ⟨S1048576x128, .f32⟩
  | .hbm, ⟨16, _⟩ => ⟨S_, .f32⟩
  | .hbm, ⟨17, _⟩ => ⟨S16384x128, .f32⟩
  | .hbm, ⟨18, _⟩ => ⟨S1048576x1, .i32⟩
  | .hbm, ⟨19, _⟩ => ⟨S16384x128, .f32⟩
  | .hbm, ⟨20, _⟩ => ⟨S_, .f32⟩
  | .hbm, ⟨21, _⟩ => ⟨S16384x128, .f32⟩
  | .hbm, ⟨22, _⟩ => ⟨S16384x128, .f32⟩
  | .hbm, ⟨23, _⟩ => ⟨S256x64x128, .f32⟩
  | .local _ .vmem, ⟨0, _⟩ => ⟨S8192x1, .f32⟩
  | .local _ .vmem, ⟨1, _⟩ => ⟨S8192x1, .f32⟩
  | .local _ .vmem, ⟨2, _⟩ => ⟨S8192x128, .f32⟩
  | .local _ .vmem, ⟨3, _⟩ => ⟨S8192x128, .f32⟩
  | .local _ .vmem, ⟨4, _⟩ => ⟨S8192x128, .f32⟩
  | .local _ .vmem, ⟨5, _⟩ => ⟨S8192x128, .f32⟩
  | .local _ .vmem, ⟨6, _⟩ => ⟨S8192x128, .f32⟩
  | .local _ .vmem, ⟨7, _⟩ => ⟨S8192x128, .f32⟩
  | _, _ => ⟨S256x64x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_c : Ref sig .tc := ⟨.hbm, 6, rfl⟩
abbrev main_v1 : Ref sig .tc := ⟨.hbm, 7, rfl⟩
abbrev main_v2 : Ref sig .tc := ⟨.hbm, 8, rfl⟩
abbrev main_c_0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_call0_cst : Ref sig .tc := ⟨.hbm, 20, rfl⟩
abbrev main_call0_v0 : Ref sig .tc := ⟨.hbm, 21, rfl⟩
abbrev main_v12 : Ref sig .tc := ⟨.hbm, 22, rfl⟩
abbrev main_v13 : Ref sig .tc := ⟨.hbm, 23, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8192x1 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8192x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S8192x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S8192x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  shapeCasts_S256x64x128_S16384x128 : S256x64x128.ShapeCasts S16384x128
  bcast_S_S1048576 : S_.BroadcastsInDim S1048576 (![] : Fin 0 → Fin S1048576.rank)
  bcast_S1048576_S1048576x1_0 : S1048576.BroadcastsInDim S1048576x1 (![0] : Fin 1 → Fin S1048576x1.rank)
  inb_S8192x1_S8192x1_0_0 : ∀ a, (![0, 0] : Fin 2 → Nat) a + S8192x1.size a ≤ S8192x1.size a
  h_S8192x1 : 0 < S8192x1.numel
  inb_S8192x128_S8192x128_0_0 : ∀ a, (![0, 0] : Fin 2 → Nat) a + S8192x128.size a ≤ S8192x128.size a
  h_S8192x128 : 0 < S8192x128.numel
  broadcasts_S8192x1_S8192x128 : S8192x1.Broadcasts S8192x128
  shapeCasts_S8192x128_S8192x128 : S8192x128.ShapeCasts S8192x128
  bcast_S_S16384x128 : S_.BroadcastsInDim S16384x128 (![] : Fin 0 → Fin S16384x128.rank)
  shapeCasts_S16384x128_S256x64x128 : S16384x128.ShapeCasts S256x64x128
  gather_S16384x128_S1048576x1_S1048576x128_1_0_n_n_0_1_1128_wf : GatherDims.WF S16384x128 S1048576x1 S1048576x128 [1] [0] [] [0] [] 1 ![1, 128]
  scatter_S16384x128_S1048576x1_S1048576x128_1_0_0_1_wf : ScatterDims.WF S16384x128 S1048576x1 S1048576x128 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8192x1.size a ≤ S1048576x1.size a
  hwx0_0 : ∀ i : grid0.Coords, EltTy.bits .f32 = 32 ∨ (Rect.block (s := S1048576x1) S8192x1.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8192x128.size a ≤ S1048576x128.size a
  hwx0_1 : ∀ i : grid0.Coords, EltTy.bits .f32 = 32 ∨ (Rect.block (s := S1048576x128) S8192x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S8192x128.size a ≤ S1048576x128.size a
  hwx0_2 : ∀ i : grid0.Coords, EltTy.bits .f32 = 32 ∨ (Rect.block (s := S1048576x128) S8192x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S8192x128.size a ≤ S1048576x128.size a
  hwx0_3 : ∀ i : grid0.Coords, EltTy.bits .f32 = 32 ∨ (Rect.block (s := S1048576x128) S8192x128.size (cc0_transform_3 i) (hinb0_3 i)).WholeWords (EltTy.packing .f32)

variable [Facts₀]

def gather_S16384x128_S1048576x1_S1048576x128_1_0_n_n_0_1_1128 : GatherDims S16384x128 S1048576x1 S1048576x128 where
  offsetDims := [1]
  collapsedSliceDims := [0]
  operandBatchingDims := []
  startIndicesBatchingDims := []
  startIndexMap := [0]
  indexVectorDim := 1
  sliceSizes := ![1, 128]
  wf := gather_S16384x128_S1048576x1_S1048576x128_1_0_n_n_0_1_1128_wf
def scatter_S16384x128_S1048576x1_S1048576x128_1_0_0_1 : ScatterDims S16384x128 S1048576x1 S1048576x128 where
  updateWindowDims := [1]
  insertedWindowDims := [0]
  scatterDimsToOperandDims := [0]
  indexVectorDim := 1
  wf := scatter_S16384x128_S1048576x1_S1048576x128_1_0_0_1_wf

abbrev win0_0 : Pipeline.Window sig grid0 :=
  Pipeline.Window.ofSpec (Memref.whole main_arg1) S8192x1.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S8192x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v7) S8192x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v8) S8192x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S256x64x128 : Shape := ⟨3, ![256, 64, 128]⟩
abbrev S1048576x1 : Shape := ⟨2, ![1048576, 1]⟩
abbrev S1048576x128 : Shape := ⟨2, ![1048576, 128]⟩
abbrev S1048576 : Shape := ⟨1, ![1048576]⟩
abbrev S16384x128 : Shape := ⟨2, ![16384, 128]⟩
abbrev S_ : Shape := ⟨0, ![]⟩

abbrev nBuf : Space → Nat
  | .hbm => 26
  | .vmem => 0
  | .smem => 0
  | _ => 0

abbrev bufTy : (tb : Table) → Fin (tcTables nBuf tb) → BufTy
  | .hbm, ⟨0, _⟩ => ⟨S256x64x128, .f32⟩
  | .hbm, ⟨1, _⟩ => ⟨S1048576x1, .f32⟩
  | .hbm, ⟨2, _⟩ => ⟨S1048576x128, .f32⟩
  | .hbm, ⟨3, _⟩ => ⟨S1048576, .i32⟩
  | .hbm, ⟨4, _⟩ => ⟨S1048576, .i32⟩
  | .hbm, ⟨5, _⟩ => ⟨S16384x128, .f32⟩
  | .hbm, ⟨6, _⟩ => ⟨S1048576x128, .f32⟩
  | .hbm, ⟨7, _⟩ => ⟨S1048576x128, .f32⟩
  | .hbm, ⟨8, _⟩ => ⟨S_, .i32⟩
  | .hbm, ⟨9, _⟩ => ⟨S1048576, .i32⟩
  | .hbm, ⟨10, _⟩ => ⟨S1048576, .i1⟩
  | .hbm, ⟨11, _⟩ => ⟨S_, .i32⟩
  | .hbm, ⟨12, _⟩ => ⟨S1048576, .i32⟩
  | .hbm, ⟨13, _⟩ => ⟨S1048576, .i32⟩
  | .hbm, ⟨14, _⟩ => ⟨S1048576, .i32⟩
  | .hbm, ⟨15, _⟩ => ⟨S1048576x1, .i32⟩
  | .hbm, ⟨16, _⟩ => ⟨S1048576x128, .f32⟩
  | .hbm, ⟨17, _⟩ => ⟨S1048576x128, .f32⟩
  | .hbm, ⟨18, _⟩ => ⟨S_, .f32⟩
  | .hbm, ⟨19, _⟩ => ⟨S16384x128, .f32⟩
  | .hbm, ⟨20, _⟩ => ⟨S1048576x1, .i32⟩
  | .hbm, ⟨21, _⟩ => ⟨S16384x128, .f32⟩
  | .hbm, ⟨22, _⟩ => ⟨S_, .f32⟩
  | .hbm, ⟨23, _⟩ => ⟨S16384x128, .f32⟩
  | .hbm, ⟨24, _⟩ => ⟨S16384x128, .f32⟩
  | .hbm, ⟨25, _⟩ => ⟨S256x64x128, .f32⟩
  | _, _ => ⟨S256x64x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_c : Ref sig .tc := ⟨.hbm, 8, rfl⟩
abbrev main_v3 : Ref sig .tc := ⟨.hbm, 9, rfl⟩
abbrev main_v4 : Ref sig .tc := ⟨.hbm, 10, rfl⟩
abbrev main_c_0 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_cst : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_call0_cst : Ref sig .tc := ⟨.hbm, 22, rfl⟩
abbrev main_call0_v0 : Ref sig .tc := ⟨.hbm, 23, rfl⟩
abbrev main_v14 : Ref sig .tc := ⟨.hbm, 24, rfl⟩
abbrev main_v15 : Ref sig .tc := ⟨.hbm, 25, rfl⟩

abbrev nD : Nat := 1
abbrev τ : Topo := Topo.v7x

variable {F : FTy → Type} [FloatOps F]

class Facts₀ : Prop where
  shapeCasts_S256x64x128_S16384x128 : S256x64x128.ShapeCasts S16384x128
  bcast_S1048576x1_S1048576x128_0_1 : S1048576x1.BroadcastsInDim S1048576x128 (![0, 1] : Fin 2 → Fin S1048576x128.rank)
  bcast_S_S1048576 : S_.BroadcastsInDim S1048576 (![] : Fin 0 → Fin S1048576.rank)
  bcast_S1048576_S1048576x1_0 : S1048576.BroadcastsInDim S1048576x1 (![0] : Fin 1 → Fin S1048576x1.rank)
  bcast_S_S16384x128 : S_.BroadcastsInDim S16384x128 (![] : Fin 0 → Fin S16384x128.rank)
  shapeCasts_S16384x128_S256x64x128 : S16384x128.ShapeCasts S256x64x128
  gather_S16384x128_S1048576x1_S1048576x128_1_0_n_n_0_1_1128_wf : GatherDims.WF S16384x128 S1048576x1 S1048576x128 [1] [0] [] [0] [] 1 ![1, 128]
  scatter_S16384x128_S1048576x1_S1048576x128_1_0_0_1_wf : ScatterDims.WF S16384x128 S1048576x1 S1048576x128 [1] [0] [0] 1

variable [Facts₀]

def gather_S16384x128_S1048576x1_S1048576x128_1_0_n_n_0_1_1128 : GatherDims S16384x128 S1048576x1 S1048576x128 where
  offsetDims := [1]
  collapsedSliceDims := [0]
  operandBatchingDims := []
  startIndicesBatchingDims := []
  startIndexMap := [0]
  indexVectorDim := 1
  sliceSizes := ![1, 128]
  wf := gather_S16384x128_S1048576x1_S1048576x128_1_0_n_n_0_1_1128_wf
def scatter_S16384x128_S1048576x1_S1048576x128_1_0_0_1 : ScatterDims S16384x128 S1048576x1 S1048576x128 where
  updateWindowDims := [1]
  insertedWindowDims := [0]
  scatterDimsToOperandDims := [0]
  indexVectorDim := 1
  wf := scatter_S16384x128_S1048576x1_S1048576x128_1_0_0_1_wf

class Facts : Prop extends Facts₀ where

variable [Facts]
-- ==== Proof.EdgeMessage.lean ====
/-
  The per-edge message of a message-passing layer, as one function of three arrays, index by index.

  For edge `e` and feature column `k` the message is `(w e · p e k) · g e k`: the edge's scalar weight `w e`
  (a column vector, one entry per edge) times the edge's parameter in column `k`, times the feature `g e k`
  gathered from the edge's source node. Both programs compute exactly this product, in this order; one
  tiles the edges into blocks of 8192 rows, the other multiplies whole arrays after broadcasting the weight
  column along the feature axis. No law of arithmetic is needed: the two sides are the same product of the
  same three entries at every index, so nothing here depends on the entries being finite.
-/
import Idealize.ShloMosaic.PureOps.Ideal
import Idealize.ShloMosaic.Lib.ValueIdx
import Idealize.ShloMosaic.Lib.Pipeline.Value

noncomputable section

namespace Cert.EdgeMessage

open Idealize.ShloMosaic Idealize.ShloMosaic.ValueIdx

/-- The edge-weight column: one extended real per edge. -/
abbrev ColShape : Shape := ⟨2, ![1048576, 1]⟩
/-- An edge-by-feature array. -/
abbrev EdgeShape : Shape := ⟨2, ![1048576, 128]⟩

/-- The message of edge `e` in feature column `k`: `(w e · p e k) · g e k`. -/
def msgAt (w : ColShape.Idx → EReal) (p g : EdgeShape.Idx → EReal) (e : Fin 1048576) (k : Fin 128) : EReal :=
  (w (ix2 e (0 : Fin 1)) * p (ix2 e k)) * g (ix2 e k)

/-- The messages as an edge-by-feature array. -/
def msg (w : ColShape.Idx → EReal) (p g : EdgeShape.Idx → EReal) : EdgeShape.Idx → EReal :=
  fun i => msgAt w p g (i 0) (i 1)

/-- The message array read at edge `e`, column `k`. -/
theorem msg_ix2 (w : ColShape.Idx → EReal) (p g : EdgeShape.Idx → EReal) (e : Fin 1048576) (k : Fin 128) :
    msg w p g (ix2 e k) = (w (ix2 e (0 : Fin 1)) * p (ix2 e k)) * g (ix2 e k) := rfl

/-- Broadcasting the weight column along the feature axis and multiplying whole arrays, left to right, is
    the message function: at index `(e, k)` the broadcast column reads `w e`. -/
theorem whole_array_form (h : ColShape.BroadcastsInDim EdgeShape ![0, 1])
    (w : FVec Ideal ColShape .f32) (p g : FVec Ideal EdgeShape .f32) :
    mulf (mulf (broadcastInDim EdgeShape ![0, 1] h w) p) g = msg w p g := by
  funext i
  obtain ⟨e, k, rfl⟩ : ∃ (e : Fin 1048576) (k : Fin 128), i = ix2 e k := ⟨i 0, i 1, eq_ix2 i⟩
  rw [msg_ix2, mulf_apply, mulf_apply,
    broadcastInDim_apply ![0, 1] h w (ix2 e k) (ix2 e (0 : Fin 1)) (by
      intro a
      match a with
      | ⟨0, _⟩ => exact (if_neg (show ¬ (1048576 : Nat) = 1 by decide)).symm
      | ⟨1, _⟩ => exact (if_pos rfl).symm)]

end Cert.EdgeMessage

end
-- ==== Proof.BlockMessage.lean ====
/-
  One block of the tiled program, read at an index.

  At a grid point the body loads an 8192×1 block of the weight column and two 8192×128 blocks (the edge
  parameters and the gathered features), broadcasts the column along the lanes, multiplies by the
  parameters, then by the features, and stores the product. Read at row `r`, lane `l` of the block this is
  `(x0 r · x1 r l) · x2 r l`: the broadcast reads the column's entry of the same row, and the reshape to the
  same shape is the identity. If the three blocks hold the corresponding entries of three whole arrays,
  the stored value is the message function of those arrays at the corresponding whole-array index.
-/
import proofs.«146082_j42691974922546_2_alg».proof.Proof.Gen.KernelIdeal.Skeleton
import proofs.«146082_j42691974922546_2_alg».proof.Proof.EdgeMessage
import Idealize.ShloMosaic.Lib.ValueIdx
import Idealize.ShloMosaic.Lib.Pipeline.Value

noncomputable section

namespace Cert.BlockMessage

open Idealize.ShloMosaic Idealize.ShloMosaic.ValueIdx Cert.KernelIdeal Cert.KernelIdeal.Gen Cert.EdgeMessage

/-- The body's stored value at row `r`, lane `l` of the block: the column's entry of that row, times the
    parameter, times the feature. -/
theorem pay_apply (x0 : Vec Ideal S8192x1 .f32) (x1 x2 : Vec Ideal S8192x128 .f32) (r : Fin 8192) (l : Fin 128) :
    k0_pay1 (F := Ideal) x0 x1 x2 (ix2 r l) = (x0 (ix2 r (0 : Fin 1)) * x1 (ix2 r l)) * x2 (ix2 r l) := by
  unfold k0_pay1
  rw [mulf_apply, mulf_apply, shapeCast_self,
    broadcastTo_apply x0 broadcasts_S8192x1_S8192x128 (ix2 r l) (ix2 r (0 : Fin 1)) (by
      intro a
      match a with
      | ⟨0, _⟩ => exact (if_neg (show ¬ (8192 : Nat) = 1 by decide)).symm
      | ⟨1, _⟩ => exact (if_pos rfl).symm)]

/-- A block whose entries at row `r`, lane `l` are those of whole arrays `A1`, `A2`, `A3` at edge `e`, column `k`
    (the column read in the same row) stores there the message of `A1`, `A2`, `A3` at `(e, k)`. -/
theorem pay_eq_msg (A1 : EdgeMessage.ColShape.Idx → EReal) (A2 A3 : EdgeMessage.EdgeShape.Idx → EReal)
    (x0 : Vec Ideal S8192x1 .f32) (x1 x2 : Vec Ideal S8192x128 .f32) (r : Fin 8192) (l : Fin 128)
    (e : Fin 1048576) (k : Fin 128)
    (h0 : x0 (ix2 r (0 : Fin 1)) = A1 (ix2 e (0 : Fin 1)))
    (h1 : x1 (ix2 r l) = A2 (ix2 e k)) (h2 : x2 (ix2 r l) = A3 (ix2 e k)) :
    k0_pay1 (F := Ideal) x0 x1 x2 (ix2 r l) = msg A1 A2 A3 (ix2 e k) := by
  rw [pay_apply, msg_ix2, h0, h1, h2]

end Cert.BlockMessage

end
-- ==== Proof.MessageArray.lean ====
/-
  The array the tiled region leaves: the message function of the three arrays it reads.

  The region runs over 128 grid points; point `t` reads rows `8192·t … 8192·t + 8191` of the weight column,
  of the edge parameters and of the gathered features, and writes back the same rows of its output. So what
  point `t` writes back is the restriction to those rows of ONE whole-array function — the message of the
  three arrays as the region finds them — and since row `r` lies in the block of point `r / 8192`, the
  blocks cover the output array, which therefore ends holding that function everywhere.
-/
import proofs.«146082_j42691974922546_2_alg».proof.Proof.Gen.KernelIdeal.Frame
import proofs.«146082_j42691974922546_2_alg».proof.Proof.BlockMessage
import Idealize.ShloMosaic.Lib.Pipeline.Value
import Idealize.ShloMosaic.Lib.ValueIdx

set_option maxRecDepth 16384

noncomputable section

namespace Cert.MessageArray

open Idealize.ShloMosaic Idealize.ShloMosaic.TcCoe Idealize.ShloMosaic.ValueIdx Idealize.SL.Sem
open Cert.KernelIdeal Cert.KernelIdeal.Gen Cert.EdgeMessage
open Idealize.ShloMosaic.Pipeline (Dat Cfg Window)

variable (m : (ℓ : Loc nD τ sig) → Buf (Elt Ideal) ℓ)

theorem origin : (![0, 0] : Fin 2 → Nat) = fun _ => 0 := funext fun a => by fin_cases a <;> rfl

/-- The printed index maps over the grid: every window's block at point `t` is block `(t, 0)`. -/
theorem block_index : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = t.val ∧ win0_3.index t (1 : Fin 2) = 0 :=
  (by decide +kernel : ∀ t : Fin grid0.N, _)

/-- What point `t` writes back is block `t` of the message of the arrays as the region finds them. -/
theorem flushed_eq (c : Dev nD) (t : Fin cfg0.N) :
    (dats m 0 c).flushed 3 t
      = ((cfg0.win 3).blk t).view.read (Elt Ideal) (msg (V m c main_arg1) (V m c main_arg2) (V m c main_v7)) := by
  show (cfg0.win 3).cut (grid0.coords t) ((dats m 0 c).after 3 t) = _
  rw [after0_3]
  unfold out0_3
  rw [View.canon_unit_zero origin]
  simp only [View.ld_unit_zero (S := S8192x1) origin, View.ld_unit_zero (S := S8192x128) origin]
  obtain ⟨e00, e01, e10, e11, e20, e21, e30, e31⟩ := block_index t
  have ht : t.val < 128 := lt_of_lt_of_eq t.isLt N_0
  funext j
  obtain ⟨r, l, rfl⟩ : ∃ (r : Fin 8192) (l : Fin 128), j = ix2 r l := ⟨j 0, j 1, eq_ix2 j⟩
  have hr : r.val < 8192 := r.isLt
  -- the block's row `r` is row `8192·t + r` of the arrays
  have hemb : ((cfg0.win 3).blk t).view.emb (ix2 r l)
      = ix2 (⟨t.val * 8192 + r.val, by omega⟩ : Fin 1048576) l := by
    funext a; apply Fin.ext
    match a with
    | ⟨0, _⟩ => show win0_3.index t (0 : Fin 2) * 8192 + 1 * r.val = t.val * 8192 + r.val; omega
    | ⟨1, _⟩ => show win0_3.index t (1 : Fin 2) * 128 + 1 * l.val = l.val; omega
  show k0_pay1 (iblk m c 0 t) (iblk m c 1 t) (iblk m c 2 t) (ix2 r l)
    = msg (V m c main_arg1) (V m c main_arg2) (V m c main_v7) (((cfg0.win 3).blk t).view.emb (ix2 r l))
  rw [hemb]
  refine BlockMessage.pay_eq_msg (V m c main_arg1) (V m c main_arg2) (V m c main_v7) _ _ _ r l _ l ?_ ?_ ?_
  · show V m c main_arg1 (((cfg0.win 0).blk t).view.emb (ix2 r (0 : Fin 1))) = V m c main_arg1 _
    refine congrArg (V m c main_arg1) ?_
    funext a; apply Fin.ext
    match a with
    | ⟨0, _⟩ => show win0_0.index t (0 : Fin 2) * 8192 + 1 * r.val = t.val * 8192 + r.val; omega
    | ⟨1, _⟩ => show win0_0.index t (1 : Fin 2) * 1 + 1 * 0 = 0; omega
  · show V m c main_arg2 (((cfg0.win 1).blk t).view.emb (ix2 r l)) = V m c main_arg2 _
    refine congrArg (V m c main_arg2) ?_
    funext a; apply Fin.ext
    match a with
    | ⟨0, _⟩ => show win0_1.index t (0 : Fin 2) * 8192 + 1 * r.val = t.val * 8192 + r.val; omega
    | ⟨1, _⟩ => show win0_1.index t (1 : Fin 2) * 128 + 1 * l.val = l.val; omega
  · show V m c main_v7 (((cfg0.win 2).blk t).view.emb (ix2 r l)) = V m c main_v7 _
    refine congrArg (V m c main_v7) ?_
    funext a; apply Fin.ext
    match a with
    | ⟨0, _⟩ => show win0_2.index t (0 : Fin 2) * 8192 + 1 * r.val = t.val * 8192 + r.val; omega
    | ⟨1, _⟩ => show win0_2.index t (1 : Fin 2) * 128 + 1 * l.val = l.val; omega

/-- An index of the output array is in point `t`'s block iff each coordinate is in the block's range. -/
theorem mem_block (t : Fin cfg0.N) (i : S1048576x128.Idx) :
    i ∈ ((cfg0.win 3).blk t).view.set ↔ ∀ a : Fin 2, win0_3.index t a * S8192x128.size a ≤ (i a).val
      ∧ (i a).val < win0_3.index t a * S8192x128.size a + S8192x128.size a := by
  show i ∈ ((View.whole main_v8).slice (win0_3.rect t)).set ↔ _
  rw [View.set_slice_whole, Rect.mem_set_unit]
  exact Iff.rfl

/-- Row `r` of the output array lies in the block of point `r / 8192`: the blocks cover the array. -/
theorem cover (i : S1048576x128.Idx) :
    ∃ t : Fin cfg0.N, (cfg0.win 3).flush t = true ∧ i ∈ ((cfg0.win 3).blk t).view.set := by
  have hi0 : (i 0).val < 1048576 := idx2_lt0 i
  have hi1 : (i 1).val < 128 := idx2_lt1 i
  have hN : (i 0).val / 8192 < cfg0.N := by
    show (i 0).val / 8192 < grid0.N
    rw [N_0]; omega
  refine ⟨⟨(i 0).val / 8192, hN⟩, flush0_3 _, ?_⟩
  rw [mem_block]
  obtain ⟨-, -, -, -, -, -, e30, e31⟩ := block_index ⟨(i 0).val / 8192, hN⟩
  intro a
  match a with
  | ⟨0, _⟩ =>
    show win0_3.index ⟨(i 0).val / 8192, hN⟩ (0 : Fin 2) * 8192 ≤ (i 0).val
      ∧ (i 0).val < win0_3.index ⟨(i 0).val / 8192, hN⟩ (0 : Fin 2) * 8192 + 8192
    rw [e30]
    show (i 0).val / 8192 * 8192 ≤ (i 0).val ∧ (i 0).val < (i 0).val / 8192 * 8192 + 8192
    omega
  | ⟨1, _⟩ =>
    show win0_3.index ⟨(i 0).val / 8192, hN⟩ (1 : Fin 2) * 128 ≤ (i 1).val
      ∧ (i 1).val < win0_3.index ⟨(i 0).val / 8192, hN⟩ (1 : Fin 2) * 128 + 128
    rw [e31]
    omega

/-- The output array after the region: the message of the three arrays as the region finds them. -/
theorem final (c : Dev nD) :
    (dats m 0 c).arrAt 3 cfg0.N = msg (V m c main_arg1) (V m c main_arg2) (V m c main_v7) :=
  (dats m 0 c).arrAt_eq_of_cover 3 _ (fun t _ => flushed_eq m c t) cover

end Cert.MessageArray

end
-- ==== Proof.HostChain.lean ====
/-
  The operations both programs apply around the message product, named once and never opened.

  Before the product: the node features, flattened to one row per node, are gathered by the edges' source
  ids (a negative id counted from the end, as the host's indexing does). After it: the messages are summed
  into their destination nodes, starting from zero; the negative part of each sum is cut off; and the rows
  are regrouped per graph. Both programs apply exactly these operations — the same records, the same
  literals — to the same arguments, so the comparison of the two programs never needs to know what a gather
  or a scatter-add computes: it is enough that equal messages go in. They are stated for any reading of the
  float operations, since nothing about them is used.
-/
import proofs.«146082_j42691974922546_2_alg».proof.KernelIdeal
import Idealize.ShloMosaic.PureOps.Ideal

noncomputable section

namespace Cert.HostChain

open Idealize.ShloMosaic Cert.KernelIdeal

variable {F : FTy → Type} [FloatOps F] [Cert.KernelIdeal.Facts]
open Cert.KernelIdeal.Facts₀ Cert.KernelIdeal.Facts

/-- The features of each edge's source node: row `ids e` (plus the node count when negative) of the
    flattened node features, one row per edge. -/
def gathered (x : FVec F S256x64x128 .f32) (ids : IVec S1048576 32) : FVec F S1048576x128 .f32 :=
  Host.gather gather_S16384x128_S1048576x1_S1048576x128_1_0_n_n_0_1_1128
    (shapeCast _ x shapeCasts_S256x64x128_S16384x128)
    (broadcastInDim S1048576x1 ![0] bcast_S1048576_S1048576x1_0
      (select (cmpi .slt ids (broadcastInDim S1048576 ![] bcast_S_S1048576 (constantI S_ 32 0#32)))
        (addi ids (broadcastInDim S1048576 ![] bcast_S_S1048576 (constantI S_ 32 16384#32))) ids))

/-- The layer's output from the messages: summed into their destination nodes from zero, the negative part cut
    off, regrouped per graph. -/
def aggregate (ids : IVec S1048576 32) (u : FVec F S1048576x128 .f32) : FVec F S256x64x128 .f32 :=
  shapeCast _
    (maximumf
      (Host.scatterAdd scatter_S16384x128_S1048576x1_S1048576x128_1_0_0_1
        (broadcastInDim S16384x128 ![] bcast_S_S16384x128 (constant S_ .f32 0x00000000#32))
        (broadcastInDim S1048576x1 ![0] bcast_S1048576_S1048576x1_0 ids) u)
      (broadcastInDim S16384x128 ![] bcast_S_S16384x128 (constant S_ .f32 0x00000000#32)))
    shapeCasts_S16384x128_S256x64x128

end Cert.HostChain

end
-- ==== Proof.KernelValue.lean ====
/-
  What the tiled program returns.

  Its host operations before the region prepare the third array the region reads: the gather of the node
  features by the source ids. The region leaves the message array. The host operations after the region
  aggregate the messages by the destination ids. So the program returns the aggregation, by the destination
  ids, of the messages of the weight column, the edge parameters and the gathered features — each of the
  argument arrays as launched.
-/
import proofs.«146082_j42691974922546_2_alg».proof.Proof.Gen.KernelIdeal.Frame
import proofs.«146082_j42691974922546_2_alg».proof.Proof.MessageArray
import proofs.«146082_j42691974922546_2_alg».proof.Proof.HostChain
import Idealize.ShloMosaic.Lib.StableHlo.Run
import Idealize.ShloMosaic.Lib.Pipeline.Value

set_option maxRecDepth 16384

noncomputable section

namespace Cert.KernelValue

open Idealize.ShloMosaic Idealize.ShloMosaic.TcCoe Idealize.SL.Sem Idealize.ShloMosaic.StableHlo
open Cert.KernelIdeal Cert.KernelIdeal.Gen Cert.EdgeMessage

/-- The host operations after the region, from any buffer contents: the result is the aggregation, by the
    contents of the destination-id argument, of the contents of the region's output array. (For any reading of
    the float operations: the operations are only named, not computed.) -/
theorem tail_after {F : FTy → Type} [FloatOps F] (W : Valuation τ sig (Elt F)) :
    StableHlo.after (List.flatten [hostOps1, hostOps1_1, hostOps1_2]) W (Proc.devRef .tc main_v13)
      = HostChain.aggregate (W (Proc.devRef .tc main_arg3)) (W (Proc.devRef .tc main_v8)) := by
  simp only [hostOps1, hostOps1_1, hostOps1_2, List.flatten_cons, List.flatten_nil, List.append_nil, List.cons_append, List.nil_append]
  after_results
  rfl

variable (m : (ℓ : Loc nD τ sig) → Buf (Elt Ideal) ℓ) (ρ : Dev nD → PrngReg)

/-- The third array the region reads is the gather of the node features by the source ids. -/
theorem found_gathered (c : Dev nD) :
    V m c main_v7 = HostChain.gathered (F := Ideal) (m ((c : Thread nD τ).loc main_arg0)) (m ((c : Thread nD τ).loc main_arg4)) := by
  show StableHlo.after hostOps0 (fun b => m (c, b)) (Proc.devRef .tc main_v7) = _
  after_results
  rfl

/-- The program's result buffer after the host operations that follow the region. -/
theorem result_eq (c : Dev nD) :
    Pipeline.afterTail₀ cfgs (dats m) 0 (V0 m) [hostOps1, hostOps1_1, hostOps1_2] c main_v13
      = HostChain.aggregate (F := Ideal) (m ((c : Thread nD τ).loc main_arg3))
          (msg (m ((c : Thread nD τ).loc main_arg1)) (m ((c : Thread nD τ).loc main_arg2))
            (HostChain.gathered (F := Ideal) (m ((c : Thread nD τ).loc main_arg0)) (m ((c : Thread nD τ).loc main_arg4)))) := by
  unfold Pipeline.afterTail₀
  refine (tail_after _).trans ?_
  -- the destination ids are an argument no window stages: the tail finds them as launched
  have hdst : Pipeline.withArrays (cfgs 0).spec c (V0 m c) (fun w => (dats m 0 c).arrAt w (cfgs 0).N) (Proc.devRef .tc main_arg3)
      = m ((c : Thread nD τ).loc main_arg3) :=
    (Pipeline.withArrays_of_ne _ c (V0 m c) _ main_arg3 (by exact (by decide : ∀ w, Pipeline.arrRef spec0 w ≠ main_arg3))).trans
      (V_main_arg3 m c)
  -- the messages are the region's output array
  have hmsg : Pipeline.withArrays (cfgs 0).spec c (V0 m c) (fun w => (dats m 0 c).arrAt w (cfgs 0).N) (Proc.devRef .tc main_v8)
      = msg (m ((c : Thread nD τ).loc main_arg1)) (m ((c : Thread nD τ).loc main_arg2))
          (HostChain.gathered (F := Ideal) (m ((c : Thread nD τ).loc main_arg0)) (m ((c : Thread nD τ).loc main_arg4))) :=
    (Pipeline.withArrays_arr spec0 launch0.win.arr_inj c _ _ 3).trans
      ((MessageArray.final m c).trans (by rw [V_main_arg1, V_main_arg2, found_gathered]))
  rw [hdst, hmsg]

/-- Every weakly fair execution of the tiled program terminates with its result at the aggregation of the
    messages and its arguments unchanged: the frame run, with the result buffer read through the host
    operations after the region. -/
theorem run : θ_run defs (onTc (τ := τ) (main (F := Ideal))) ⟨m, fun _ => 0, ρ⟩ fun r => ∀ c : Dev nD,
      r.2.mem ((c.tc : Thread nD τ).loc main_v13)
        = HostChain.aggregate (F := Ideal) (m ((c : Thread nD τ).loc main_arg3))
            (msg (m ((c : Thread nD τ).loc main_arg1)) (m ((c : Thread nD τ).loc main_arg2))
              (HostChain.gathered (F := Ideal) (m ((c : Thread nD τ).loc main_arg0)) (m ((c : Thread nD τ).loc main_arg4))))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c =>
    ⟨((h c).2 main_v13 (Pipeline.mem_restRefs_of main_v13 (by decide) (by decide))).trans (result_eq m c),
      ((h c).2 main_arg0 (Pipeline.mem_restRefs_of main_arg0 (by decide) (by decide))).trans (W_main_arg0 m (dats m) c),
      ((h c).1 0).trans (((dats m 0 c).arrAt_in 0 rfl _).trans ((A_eq m c 0).trans (V_main_arg1 m c))),
      ((h c).1 1).trans (((dats m 0 c).arrAt_in 1 rfl _).trans ((A_eq m c 1).trans (V_main_arg2 m c))),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c)⟩)
    (run_main m ρ)

end Cert.KernelValue

end
-- ==== Proof.RefValue.lean ====
/-
  What the whole-array program returns, in the same words as the tiled one.

  The whole-array program gathers the source features, multiplies the broadcast weight column by the edge
  parameters and then by the gathered features, and aggregates. Its product is the message function
  (the broadcast column reads the edge's weight in every feature column), and its gather and its aggregation
  are the shared host operations.
-/
import proofs.«146082_j42691974922546_2_alg».proof.Proof.Gen.ReferenceIdeal
import proofs.«146082_j42691974922546_2_alg».proof.Proof.Gen.KernelIdeal
import proofs.«146082_j42691974922546_2_alg».proof.Proof.HostChain
import proofs.«146082_j42691974922546_2_alg».proof.Proof.EdgeMessage

noncomputable section

namespace Cert.RefValue

open Idealize.ShloMosaic Cert.ReferenceIdeal Cert.ReferenceIdeal.Facts₀ Cert.ReferenceIdeal.Facts Cert.EdgeMessage

/-- The whole-array program's result term is the aggregation of the messages of the weight column, the edge
    parameters and the gathered source features. -/
theorem result_eq (x : FVec Ideal S256x64x128 .f32) (w : FVec Ideal S1048576x1 .f32) (p : FVec Ideal S1048576x128 .f32)
    (dst src : IVec S1048576 32) :
    shapeCast _ (maximumf (Host.scatterAdd scatter_S16384x128_S1048576x1_S1048576x128_1_0_0_1
        (broadcastInDim S16384x128 ![] bcast_S_S16384x128 (constant S_ .f32 0x00000000#32))
        (broadcastInDim S1048576x1 ![0] bcast_S1048576_S1048576x1_0 dst)
        (mulf (mulf (broadcastInDim S1048576x128 ![0, 1] bcast_S1048576x1_S1048576x128_0_1 w) p)
          (Host.gather gather_S16384x128_S1048576x1_S1048576x128_1_0_n_n_0_1_1128
            (shapeCast _ x shapeCasts_S256x64x128_S16384x128)
            (broadcastInDim S1048576x1 ![0] bcast_S1048576_S1048576x1_0
              (select (cmpi .slt src (broadcastInDim S1048576 ![] bcast_S_S1048576 (constantI S_ 32 0#32)))
                (addi src (broadcastInDim S1048576 ![] bcast_S_S1048576 (constantI S_ 32 16384#32))) src)))))
      (broadcastInDim S16384x128 ![] bcast_S_S16384x128 (constant S_ .f32 0x00000000#32))) shapeCasts_S16384x128_S256x64x128
    = HostChain.aggregate (F := Ideal) dst (msg w p (HostChain.gathered (F := Ideal) x src)) := by
  rw [EdgeMessage.whole_array_form]
  rfl

end Cert.RefValue

end
-- ==== Proof.lean ====
/-
  A message-passing layer in two forms, equal on the extended reals.

  Both programs take node features (256 graphs × 64 nodes × 128 features), a weight per edge, 128 parameters
  per edge, and a destination and a source node id per edge (1,048,576 edges). Both gather each edge's source
  features, form the message `(w e · p e k) · g e k` of edge `e` in feature column `k`, sum the messages
  into their destination nodes, cut off the negative part, and regroup the rows per graph. One program forms
  the messages in a region tiled into 128 blocks of 8192 edges; the other multiplies whole arrays after
  broadcasting the weight column along the feature axis.

  The message arrays are equal index by index — the same product of the same three entries, in the same
  order — so no law of arithmetic, and no finiteness of the entries, is needed (Proof/EdgeMessage.lean for
  the whole-array form, Proof/BlockMessage.lean and Proof/MessageArray.lean for the tiled one). The gather before
  and the aggregation after are the same operations in both programs and are carried as two named functions
  that are never opened (Proof/HostChain.lean). Proof/KernelValue.lean reads the tiled program's run,
  Proof/RefValue.lean the whole-array program's result term.

  The three frame claims are the generated frame runs (the whole-array program's is its generated run with
  the result dropped); the idealization rewrote no operation, so nothing is owed for it.
-/
import proofs.«146082_j42691974922546_2_alg».proof.Defs
import proofs.«146082_j42691974922546_2_alg».proof.Proof.Gen.Kernel
import proofs.«146082_j42691974922546_2_alg».proof.Proof.Gen.Kernel.Frame
import proofs.«146082_j42691974922546_2_alg».proof.Proof.Gen.KernelIdeal
import proofs.«146082_j42691974922546_2_alg».proof.Proof.Gen.KernelIdeal.Frame
import proofs.«146082_j42691974922546_2_alg».proof.Proof.Gen.ReferenceIdeal
import proofs.«146082_j42691974922546_2_alg».proof.Proof.Gen.ReferenceIdeal.Run
import proofs.«146082_j42691974922546_2_alg».proof.Proof.Gen.Pre_finite_inputs
import proofs.«146082_j42691974922546_2_alg».proof.Proof.KernelValue
import proofs.«146082_j42691974922546_2_alg».proof.Proof.RefValue
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernel_ideal : Cert.frame_KernelIdeal := fun m ρ _ => Cert.KernelIdeal.Gen.frame m ρ

/-- The whole-array program's run, its result dropped. -/
theorem frame_reference_ideal : Cert.frame_ReferenceIdeal := fun m ρ _ =>
  (θ_run Cert.ReferenceIdeal.defs _ _).mono (fun _ h c => (h c).2) (Cert.ReferenceIdeal.Value.run (F := Ideal) m ρ)

/-- From memories agreeing on the arguments both programs end with the aggregation, by the destination ids,
    of the messages of the weight column, the edge parameters and the gathered source features. -/
theorem algebraic : Cert.algebraic_KernelIdeal_ReferenceIdeal := by
  intro m ρ m' ρ' _ hagree
  refine ⟨_, Cert.KernelValue.run m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2.1, (hagree c).2.2.1, (hagree c).2.2.2.1, (hagree c).2.2.2.2]
  exact Cert.RefValue.result_eq _ _ _ _ _

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference_ideal, trivial, algebraic⟩

end Cert.Proof

end
